-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024 .f32) (main_arg13 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x1024 .f32) (main_arg1 : FVec F S32768x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S2048x1024 : Shape := ⟨2, ![2048, 1024]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S1x1024 : Shape := ⟨2, ![1, 1024]⟩
abbrev S256x1024 : Shape := ⟨2, ![256, 1024]⟩
abbrev S256x2048 : Shape := ⟨2, ![256, 2048]⟩

abbrev nBuf : Space → Nat
  | .hbm => 31
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S2048x1024, .f32⟩
  | .hbm, ⟨15, _⟩ => ⟨S2048x1024, .f32⟩
  | .hbm, ⟨16, _⟩ => ⟨S1024x2048, .f32⟩
  | .hbm, ⟨17, _⟩ => ⟨S1024x2048, .f32⟩
  | .hbm, ⟨18, _⟩ => ⟨S2048x2048, .f32⟩
  | .hbm, ⟨19, _⟩ => ⟨S2048x2048, .bf16⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2048x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1x2048, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S1024x1024_S1024x1024_S2048x1024_d0 : Shape.Concatenates [S1024x1024, S1024x1024] S2048x1024 0
  transposes_S2048x1024_S1024x2048_1_0 : S2048x1024.Transposes [1, 0] S1024x2048
  concatenates_S1024x2048_S1024x2048_S2048x2048_d0 : Shape.Concatenates [S1024x2048, S1024x2048] S2048x2048 0
  bitsLt_bf16_f32 : FTy.bits .bf16 < FTy.bits .f32
  concatenates_S1024_S1024_S2048_d0 : Shape.Concatenates [S1024, S1024] S2048 0
  shapeCasts_S2048_S1x2048 : S2048.ShapeCasts S1x2048
  transposes_S1024x1024_S1024x1024_1_0 : S1024x1024.Transposes [1, 0] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x2048_S2048x2048_S256x2048_1_0_0_1_n_n_wf : DotDims.WF S256x2048 S2048x2048 S256x2048 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S32768x1024.size a
  hwx0_8 : ∀ i : grid0.Coords, EltTy.bits .f32 = 32 ∨ (Rect.block (s := S32768x1024) S256x1024.size (cc0_transform_8 i) (hinb0_8 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1024x3072 : Shape := ⟨2, ![1024, 3072]⟩
abbrev S32768x3072 : Shape := ⟨2, ![32768, 3072]⟩
abbrev S1x3072 : Shape := ⟨2, ![1, 3072]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S3072x1024, .f32⟩
  | .hbm, ⟨15, _⟩ => ⟨S3072x1024, .f32⟩
  | .hbm, ⟨16, _⟩ => ⟨S3072, .f32⟩
  | .hbm, ⟨17, _⟩ => ⟨S3072, .f32⟩
  | .hbm, ⟨18, _⟩ => ⟨S1024x3072, .f32⟩
  | .hbm, ⟨19, _⟩ => ⟨S32768x3072, .f32⟩
  | .hbm, ⟨20, _⟩ => ⟨S1x3072, .f32⟩
  | .hbm, ⟨21, _⟩ => ⟨S32768x3072, .f32⟩
  | .hbm, ⟨22, _⟩ => ⟨S32768x3072, .f32⟩
  | .hbm, ⟨23, _⟩ => ⟨S1024x3072, .f32⟩
  | .hbm, ⟨24, _⟩ => ⟨S32768x3072, .f32⟩
  | .hbm, ⟨25, _⟩ => ⟨S1x3072, .f32⟩
  | .hbm, ⟨26, _⟩ => ⟨S32768x3072, .f32⟩
  | .hbm, ⟨27, _⟩ => ⟨S32768x3072, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  transposes_S3072x1024_S1024x3072_1_0 : S3072x1024.Transposes [1, 0] S1024x3072
  bcast_S3072_S1x3072_1 : S3072.BroadcastsInDim S1x3072 (![1] : Fin 1 → Fin S1x3072.rank)
  bcast_S1x3072_S32768x3072_0_1 : S1x3072.BroadcastsInDim S32768x3072 (![0, 1] : Fin 2 → Fin S32768x3072.rank)
  slices_S32768x3072_S32768x1024_0_0 : S32768x3072.Slices ![0, 0] S32768x1024
  slices_S32768x3072_S32768x1024_0_1024 : S32768x3072.Slices ![0, 1024] S32768x1024
  slices_S32768x3072_S32768x1024_0_2048 : S32768x3072.Slices ![0, 2048] S32768x1024
  bcast_S_S32768x1024 : S_.BroadcastsInDim S32768x1024 (![] : Fin 0 → Fin S32768x1024.rank)
  dot_S32768x1024_S1024x3072_S32768x3072_1_0_0_1_n_n_wf : DotDims.WF S32768x1024 S1024x3072 S32768x3072 [1] [0] [0] [1] [] []

variable [Facts₀]

def dot_S32768x1024_S1024x3072_S32768x3072_1_0_0_1_n_n : DotDims S32768x1024 S1024x3072 S32768x3072 where
  lhsContracting := [1]
  rhsContracting := [0]
  lhsNonContracting := [0]
  rhsNonContracting := [1]
  lhsBatch := []
  rhsBatch := []
  wf := dot_S32768x1024_S1024x3072_S32768x3072_1_0_0_1_n_n_wf

class Facts : Prop extends Facts₀ where

variable [Facts]
-- ==== Proof.GruCell.lean ====
/-
  One step of a gated recurrent cell, entry by entry on the extended reals.

  The cell takes a batch of inputs `x` and of hidden states `h` (one row per batch element), three pairs of weight
  matrices and three pairs of bias vectors. Each gate starts from an AFFINE pre-activation: row `b` of the activations
  against row `j` of a weight matrix, plus entry `j` of a bias,
      affine v W β b j = (∑ k, v[b, k] · W[j, k]) + β[j].
  The reset gate is  r = σ (affine x W_ir β_ir + affine h W_hr β_hr),  the update gate
  z = σ (affine x W_iz β_iz + affine h W_hz β_hz),  the candidate  n = tanh (affine x W_in β_in + r · affine h W_hn β_hn),
  and the new hidden state is  (1 − z) · n + z · h[b, j].  Here σ a = 1 / (1 + e^(−a)), with the quotient, the exponential and
  the hyperbolic tangent the extended reals' own (so σ (−∞) = 0 and σ (+∞) = 1), and `1` written as the 32-bit word of 1.0
  wherever a program writes that word: a word that both sides of an equation share is never evaluated.

  This module states the function and nothing else; it mentions no program.
-/
import Idealize.ShloMosaic.PureOps.Ideal
import Idealize.ShloMosaic.Lib.ValueIdx

open scoped BigOperators

noncomputable section

namespace Cert.GruCell

open Idealize.ShloMosaic Idealize.ShloMosaic.ValueIdx

/-- A batch of 32768 rows of 1024 entries: the inputs, the hidden states, the result. -/
abbrev Acts : Shape := ⟨2, ![32768, 1024]⟩
/-- A weight matrix: row `j` holds the coefficients of output entry `j`. -/
abbrev Wt : Shape := ⟨2, ![1024, 1024]⟩
/-- A bias vector. -/
abbrev Bs : Shape := ⟨1, ![1024]⟩

/-- The 32-bit word of 1.0, read on the extended reals. -/
abbrev one : EReal := Ideal.ofBits .f32 0x3F800000#32

/-- Row `b` of the activations `v` against row `j` of the weight `W`, plus entry `j` of the bias `β`. -/
def affine (v : Acts.Idx → EReal) (W : Wt.Idx → EReal) (β : Bs.Idx → EReal) (b : Fin 32768) (j : Fin 1024) : EReal :=
  (∑ k : Fin 1024, v (ix2 b k) * W (ix2 j k)) + β (ix1 j)

/-- The gate function `1 / (1 + e^(−a))`. -/
def gate (a : EReal) : EReal := Ideal.div one (one + Ideal.exp (-a))

/-- The reset gate at batch row `b`, entry `j`. -/
def reset (x h : Acts.Idx → EReal) (Wir Whr : Wt.Idx → EReal) (βir βhr : Bs.Idx → EReal) (b : Fin 32768) (j : Fin 1024) : EReal :=
  gate (affine x Wir βir b j + affine h Whr βhr b j)

/-- The update gate at batch row `b`, entry `j` (the same function of the update gate's arrays). -/
def update (x h : Acts.Idx → EReal) (Wiz Whz : Wt.Idx → EReal) (βiz βhz : Bs.Idx → EReal) (b : Fin 32768) (j : Fin 1024) : EReal :=
  gate (affine x Wiz βiz b j + affine h Whz βhz b j)

/-- The candidate state: the hidden side's pre-activation is scaled by the reset gate BEFORE it meets the input side's. -/
def candidate (x h : Acts.Idx → EReal) (Wir Whr Win Whn : Wt.Idx → EReal) (βir βhr βin βhn : Bs.Idx → EReal)
    (b : Fin 32768) (j : Fin 1024) : EReal :=
  Ideal.tanh (affine x Win βin b j + reset x h Wir Whr βir βhr b j * affine h Whn βhn b j)

/-- The new hidden state at batch row `b`, entry `j`: the update gate blends the candidate with the old state. -/
def cellAt (x h : Acts.Idx → EReal) (Wir Whr Wiz Whz Win Whn : Wt.Idx → EReal) (βir βhr βiz βhz βin βhn : Bs.Idx → EReal)
    (b : Fin 32768) (j : Fin 1024) : EReal :=
  (one - update x h Wiz Whz βiz βhz b j) * candidate x h Wir Whr Win Whn βir βhr βin βhn b j
    + update x h Wiz Whz βiz βhz b j * h (ix2 b j)

/-- The cell's result as ONE array-valued function of its fourteen argument arrays (in the order the programs take them:
    `x`, `h`, then the weights `ir hr iz hz in hn`, then the biases in the same order). -/
def cell (x h : Acts.Idx → EReal) (Wir Whr Wiz Whz Win Whn : Wt.Idx → EReal) (βir βhr βiz βhz βin βhn : Bs.Idx → EReal) :
    Acts.Idx → EReal :=
  fun i => cellAt x h Wir Whr Wiz Whz Win Whn βir βhr βiz βhz βin βhn (i 0) (i 1)

theorem cell_apply (x h : Acts.Idx → EReal) (Wir Whr Wiz Whz Win Whn : Wt.Idx → EReal) (βir βhr βiz βhz βin βhn : Bs.Idx → EReal)
    (b : Fin 32768) (j : Fin 1024) :
    cell x h Wir Whr Wiz Whz Win Whn βir βhr βiz βhz βin βhn (ix2 b j)
      = cellAt x h Wir Whr Wiz Whz Win Whn βir βhr βiz βhz βin βhn b j := rfl

end Cert.GruCell

end
-- ==== Proof.LibStack3.lean ====
/-
  Three pieces joined along the first axis, read at a position of each piece.

  Three matrices with the same number of columns, of `a`, `b` and `c` rows, stacked on top of one another: row `p` of the
  stack is row `p` of the first matrix, row `a + q` is row `q` of the second, row `a + b + r` is row `r` of the third.
  Three vectors of lengths `a`, `b`, `c` laid end to end: the same three statements about positions. For any sizes
  and any type of entries.
-/
import Idealize.ShloMosaic.Lib.ValueIdx
import Idealize.ShloMosaic.Lib.Pipeline.Value

namespace Cert.Lib.Stack3

open Idealize.ShloMosaic Idealize.ShloMosaic.ValueIdx

variable {α : Type}

/-- Three matrices of equal width stacked on top of one another: a row of the first block is that row of the first matrix. -/
theorem stack3_rows_fst {a b c n m : Nat} (x : (⟨2, ![a, m]⟩ : Shape).Idx → α) (y : (⟨2, ![b, m]⟩ : Shape).Idx → α)
    (z : (⟨2, ![c, m]⟩ : Shape).Idx → α)
    (h : Shape.Concatenates [(⟨2, ![a, m]⟩ : Shape), ⟨2, ![b, m]⟩, ⟨2, ![c, m]⟩] ⟨2, ![n, m]⟩ 0)
    (p : Fin a) (hp : p.val < n) (k : Fin m) :
    concatenate (⟨2, ![n, m]⟩ : Shape) 0 [⟨⟨2, ![a, m]⟩, x⟩, ⟨⟨2, ![b, m]⟩, y⟩, ⟨⟨2, ![c, m]⟩, z⟩] h (ix2 (⟨p.val, hp⟩ : Fin n) k)
      = x (ix2 p k) :=
  concatenate_apply_piece (t := ⟨2, ![n, m]⟩) 0 [⟨⟨2, ![a, m]⟩, x⟩, ⟨⟨2, ![b, m]⟩, y⟩, ⟨⟨2, ![c, m]⟩, z⟩] h (ix2 (⟨p.val, hp⟩ : Fin n) k)
    0 (by show (0 : Nat) < 3; omega) ⟨2, ![a, m]⟩ x rfl rfl 0 rfl (ix2 p k) (fun d => match d with | ⟨0, _⟩ => fun hd => absurd rfl hd | ⟨1, _⟩ => fun _ => rfl)
    (Nat.zero_add p.val)

/-- Row `a + q` of the stack is row `q` of the second matrix. -/
theorem stack3_rows_snd {a b c n m : Nat} (x : (⟨2, ![a, m]⟩ : Shape).Idx → α) (y : (⟨2, ![b, m]⟩ : Shape).Idx → α)
    (z : (⟨2, ![c, m]⟩ : Shape).Idx → α)
    (h : Shape.Concatenates [(⟨2, ![a, m]⟩ : Shape), ⟨2, ![b, m]⟩, ⟨2, ![c, m]⟩] ⟨2, ![n, m]⟩ 0)
    (q : Fin b) (hq : a + q.val < n) (k : Fin m) :
    concatenate (⟨2, ![n, m]⟩ : Shape) 0 [⟨⟨2, ![a, m]⟩, x⟩, ⟨⟨2, ![b, m]⟩, y⟩, ⟨⟨2, ![c, m]⟩, z⟩] h (ix2 (⟨a + q.val, hq⟩ : Fin n) k)
      = y (ix2 q k) :=
  concatenate_apply_piece (t := ⟨2, ![n, m]⟩) 0 [⟨⟨2, ![a, m]⟩, x⟩, ⟨⟨2, ![b, m]⟩, y⟩, ⟨⟨2, ![c, m]⟩, z⟩] h (ix2 (⟨a + q.val, hq⟩ : Fin n) k)
    1 (by show (1 : Nat) < 3; omega) ⟨2, ![b, m]⟩ y rfl rfl a rfl (ix2 q k) (fun d => match d with | ⟨0, _⟩ => fun hd => absurd rfl hd | ⟨1, _⟩ => fun _ => rfl)
    rfl

/-- Row `a + b + r` of the stack is row `r` of the third matrix. -/
theorem stack3_rows_thd {a b c n m : Nat} (x : (⟨2, ![a, m]⟩ : Shape).Idx → α) (y : (⟨2, ![b, m]⟩ : Shape).Idx → α)
    (z : (⟨2, ![c, m]⟩ : Shape).Idx → α)
    (h : Shape.Concatenates [(⟨2, ![a, m]⟩ : Shape), ⟨2, ![b, m]⟩, ⟨2, ![c, m]⟩] ⟨2, ![n, m]⟩ 0)
    (r : Fin c) (hr : a + b + r.val < n) (k : Fin m) :
    concatenate (⟨2, ![n, m]⟩ : Shape) 0 [⟨⟨2, ![a, m]⟩, x⟩, ⟨⟨2, ![b, m]⟩, y⟩, ⟨⟨2, ![c, m]⟩, z⟩] h (ix2 (⟨a + b + r.val, hr⟩ : Fin n) k)
      = z (ix2 r k) :=
  concatenate_apply_piece (t := ⟨2, ![n, m]⟩) 0 [⟨⟨2, ![a, m]⟩, x⟩, ⟨⟨2, ![b, m]⟩, y⟩, ⟨⟨2, ![c, m]⟩, z⟩] h (ix2 (⟨a + b + r.val, hr⟩ : Fin n) k)
    2 (by show (2 : Nat) < 3; omega) ⟨2, ![c, m]⟩ z rfl rfl (a + b) rfl (ix2 r k) (fun d => match d with | ⟨0, _⟩ => fun hd => absurd rfl hd | ⟨1, _⟩ => fun _ => rfl)
    rfl

/-- Three vectors laid end to end: a position in the first piece reads the first vector there. -/
theorem join3_fst {a b c n : Nat} (x : (⟨1, ![a]⟩ : Shape).Idx → α) (y : (⟨1, ![b]⟩ : Shape).Idx → α)
    (z : (⟨1, ![c]⟩ : Shape).Idx → α)
    (h : Shape.Concatenates [(⟨1, ![a]⟩ : Shape), ⟨1, ![b]⟩, ⟨1, ![c]⟩] ⟨1, ![n]⟩ 0)
    (p : Fin a) (hp : p.val < n) :
    concatenate (⟨1, ![n]⟩ : Shape) 0 [⟨⟨1, ![a]⟩, x⟩, ⟨⟨1, ![b]⟩, y⟩, ⟨⟨1, ![c]⟩, z⟩] h (ix1 (⟨p.val, hp⟩ : Fin n)) = x (ix1 p) :=
  concatenate_apply_piece (t := ⟨1, ![n]⟩) 0 [⟨⟨1, ![a]⟩, x⟩, ⟨⟨1, ![b]⟩, y⟩, ⟨⟨1, ![c]⟩, z⟩] h (ix1 (⟨p.val, hp⟩ : Fin n))
    0 (by show (0 : Nat) < 3; omega) ⟨1, ![a]⟩ x rfl rfl 0 rfl (ix1 p) (fun d => match d with | ⟨0, _⟩ => fun hd => absurd rfl hd)
    (Nat.zero_add p.val)

/-- Position `a + q` reads the second vector at `q`. -/
theorem join3_snd {a b c n : Nat} (x : (⟨1, ![a]⟩ : Shape).Idx → α) (y : (⟨1, ![b]⟩ : Shape).Idx → α)
    (z : (⟨1, ![c]⟩ : Shape).Idx → α)
    (h : Shape.Concatenates [(⟨1, ![a]⟩ : Shape), ⟨1, ![b]⟩, ⟨1, ![c]⟩] ⟨1, ![n]⟩ 0)
    (q : Fin b) (hq : a + q.val < n) :
    concatenate (⟨1, ![n]⟩ : Shape) 0 [⟨⟨1, ![a]⟩, x⟩, ⟨⟨1, ![b]⟩, y⟩, ⟨⟨1, ![c]⟩, z⟩] h (ix1 (⟨a + q.val, hq⟩ : Fin n)) = y (ix1 q) :=
  concatenate_apply_piece (t := ⟨1, ![n]⟩) 0 [⟨⟨1, ![a]⟩, x⟩, ⟨⟨1, ![b]⟩, y⟩, ⟨⟨1, ![c]⟩, z⟩] h (ix1 (⟨a + q.val, hq⟩ : Fin n))
    1 (by show (1 : Nat) < 3; omega) ⟨1, ![b]⟩ y rfl rfl a rfl (ix1 q) (fun d => match d with | ⟨0, _⟩ => fun hd => absurd rfl hd)
    rfl

/-- Position `a + b + r` reads the third vector at `r`. -/
theorem join3_thd {a b c n : Nat} (x : (⟨1, ![a]⟩ : Shape).Idx → α) (y : (⟨1, ![b]⟩ : Shape).Idx → α)
    (z : (⟨1, ![c]⟩ : Shape).Idx → α)
    (h : Shape.Concatenates [(⟨1, ![a]⟩ : Shape), ⟨1, ![b]⟩, ⟨1, ![c]⟩] ⟨1, ![n]⟩ 0)
    (r : Fin c) (hr : a + b + r.val < n) :
    concatenate (⟨1, ![n]⟩ : Shape) 0 [⟨⟨1, ![a]⟩, x⟩, ⟨⟨1, ![b]⟩, y⟩, ⟨⟨1, ![c]⟩, z⟩] h (ix1 (⟨a + b + r.val, hr⟩ : Fin n)) = z (ix1 r) :=
  concatenate_apply_piece (t := ⟨1, ![n]⟩) 0 [⟨⟨1, ![a]⟩, x⟩, ⟨⟨1, ![b]⟩, y⟩, ⟨⟨1, ![c]⟩, z⟩] h (ix1 (⟨a + b + r.val, hr⟩ : Fin n))
    2 (by show (2 : Nat) < 3; omega) ⟨1, ![c]⟩ z rfl rfl (a + b) rfl (ix1 r) (fun d => match d with | ⟨0, _⟩ => fun hd => absurd rfl hd)
    rfl

end Cert.Lib.Stack3
-- ==== Proof.RefValue.lean ====
/-
  The reference program's result is the gated recurrent cell, entry by entry.

  The reference stacks the three input-side weight matrices on top of one another into one matrix of 3072 rows, and
  the three hidden-side ones likewise; it lays the three biases of each side end to end into one vector of 3072; it
  multiplies the inputs (the hidden states) by the transposed stack, adds the long bias along every row, and cuts the
  result's 3072 columns into three blocks of 1024. Column `o + j` of such a product reads row `o + j` of the stack, which
  is row `j` of the first, second or third matrix for `o = 0, 1024, 2048`; so each block is one affine pre-activation
  of the cell. What follows the blocks is entry-by-entry arithmetic spelled exactly as the cell's definition spells it.
-/
import proofs.«125904_j82231443849805_2_alg».proof.Proof.Gen.ReferenceIdeal.Read
import proofs.«125904_j82231443849805_2_alg».proof.Proof.GruCell
import proofs.«125904_j82231443849805_2_alg».proof.Proof.LibStack3
import Idealize.ShloMosaic.Lib.ValueIdx
import Idealize.ShloMosaic.Lib.Pipeline.Value
import Idealize.ShloMosaic.PureOps.Ideal.Laws

open scoped BigOperators

noncomputable section

namespace Cert.ReferenceIdeal.RefValue

open Cert.ReferenceIdeal Cert.ReferenceIdeal.Read Idealize.ShloMosaic Idealize.ShloMosaic.ValueIdx Cert.Lib.Stack3

/-! ## The three blocks of columns of a product with the transposed stack -/

section Blocks

/-- The left factor of entry `(b, c)` of the product, at step `k` of the sum, is entry `(b, k)` of the activations. -/
theorem lidx_at (b : Fin 32768) (c : Fin 3072) (k : Fin 1024) : lidx_main_v5 (ix2 b c) k = ix2 b k :=
  funext fun a => match a with | ⟨0, _⟩ => rfl | ⟨1, _⟩ => rfl

/-- The right factor of entry `(b, c)`, at step `k`, is entry `(k, c)` of the transposed stack: entry `(c, k)` of the stack. -/
theorem row_of_col (b : Fin 32768) (c : Fin 3072) (k : Fin 1024) : idx_main_v4 (ridx_main_v5 (ix2 b c) k) = ix2 c k :=
  funext fun a => match a with | ⟨0, _⟩ => rfl | ⟨1, _⟩ => rfl

/-- The long bias is spread along every row: entry `(b, c)` reads its position `c`. -/
theorem bias_pos (b : Fin 32768) (c : Fin 3072) : idx_main_v6 (idx_main_v7 (ix2 b c)) = ix1 c :=
  funext fun a => match a with | ⟨0, _⟩ => rfl

/-- Column `j` of the product plus bias reads row `j` of the FIRST matrix of the stack and entry `j` of the first bias: the first affine pre-activation. -/
theorem block_fst (x : (⟨S32768x1024, .f32⟩ : BufTy).Contents (Elt Ideal))
    (W₁ W₂ W₃ : (⟨S1024x1024, .f32⟩ : BufTy).Contents (Elt Ideal))
    (β₁ β₂ β₃ : (⟨S1024, .f32⟩ : BufTy).Contents (Elt Ideal))
    (b : Fin 32768) (j : Fin 1024) (hj : j.val < 3072) :
    val_main_v8 (F := Ideal) x W₁ W₂ W₃ β₁ β₂ β₃ (ix2 b (⟨j.val, hj⟩ : Fin 3072)) = GruCell.affine x W₁ β₁ b j := by
  rw [val_main_v8_apply, val_main_v5_apply, val_main_v7_apply, val_main_v6_apply]
  unfold GruCell.affine
  refine congrArg₂ (· + ·) (Finset.sum_congr rfl fun k _ => ?_) ?_
  · rw [val_main_v4_apply, lidx_at, row_of_col]
    exact congrArg (x (ix2 b k) * ·) (stack3_rows_fst W₁ W₂ W₃ _ j hj k)
  · rw [bias_pos]
    exact join3_fst β₁ β₂ β₃ _ j hj

/-- Column `1024 + j` reads row `j` of the SECOND matrix and entry `j` of the second bias. -/
theorem block_snd (x : (⟨S32768x1024, .f32⟩ : BufTy).Contents (Elt Ideal))
    (W₁ W₂ W₃ : (⟨S1024x1024, .f32⟩ : BufTy).Contents (Elt Ideal))
    (β₁ β₂ β₃ : (⟨S1024, .f32⟩ : BufTy).Contents (Elt Ideal))
    (b : Fin 32768) (j : Fin 1024) (hj : 1024 + j.val < 3072) :
    val_main_v8 (F := Ideal) x W₁ W₂ W₃ β₁ β₂ β₃ (ix2 b (⟨1024 + j.val, hj⟩ : Fin 3072)) = GruCell.affine x W₂ β₂ b j := by
  rw [val_main_v8_apply, val_main_v5_apply, val_main_v7_apply, val_main_v6_apply]
  unfold GruCell.affine
  refine congrArg₂ (· + ·) (Finset.sum_congr rfl fun k _ => ?_) ?_
  · rw [val_main_v4_apply, lidx_at, row_of_col]
    exact congrArg (x (ix2 b k) * ·) (stack3_rows_snd W₁ W₂ W₃ _ j hj k)
  · rw [bias_pos]
    exact join3_snd β₁ β₂ β₃ _ j hj

/-- Column `2048 + j` reads row `j` of the THIRD matrix and entry `j` of the third bias. -/
theorem block_thd (x : (⟨S32768x1024, .f32⟩ : BufTy).Contents (Elt Ideal))
    (W₁ W₂ W₃ : (⟨S1024x1024, .f32⟩ : BufTy).Contents (Elt Ideal))
    (β₁ β₂ β₃ : (⟨S1024, .f32⟩ : BufTy).Contents (Elt Ideal))
    (b : Fin 32768) (j : Fin 1024) (hj : 2048 + j.val < 3072) :
    val_main_v8 (F := Ideal) x W₁ W₂ W₃ β₁ β₂ β₃ (ix2 b (⟨2048 + j.val, hj⟩ : Fin 3072)) = GruCell.affine x W₃ β₃ b j := by
  rw [val_main_v8_apply, val_main_v5_apply, val_main_v7_apply, val_main_v6_apply]
  unfold GruCell.affine
  refine congrArg₂ (· + ·) (Finset.sum_congr rfl fun k _ => ?_) ?_
  · rw [val_main_v4_apply, lidx_at, row_of_col]
    exact congrArg (x (ix2 b k) * ·) (stack3_rows_thd W₁ W₂ W₃ _ j hj k)
  · rw [bias_pos]
    exact join3_thd β₁ β₂ β₃ _ j hj

/-- The hidden side's product is the same function of its own seven arrays as the input side's. -/
theorem hidden_side (h : (⟨S32768x1024, .f32⟩ : BufTy).Contents (Elt Ideal))
    (W₁ W₂ W₃ : (⟨S1024x1024, .f32⟩ : BufTy).Contents (Elt Ideal))
    (β₁ β₂ β₃ : (⟨S1024, .f32⟩ : BufTy).Contents (Elt Ideal)) :
    val_main_v13 (F := Ideal) h W₁ W₂ W₃ β₁ β₂ β₃ = val_main_v8 (F := Ideal) h W₁ W₂ W₃ β₁ β₂ β₃ := rfl

end Blocks

/-! ## The six cuts are the six affine pre-activations -/

section Cuts

/-- The first cut keeps the columns: its entry `(b, j)` is the product's entry `(b, j)`. -/
theorem col_v14 (b : Fin 32768) (j : Fin 1024) :
    idx_main_v14 (ix2 b j) = ix2 b (⟨j.val, by have := j.isLt; omega⟩ : Fin 3072) :=
  funext fun a => match a with | ⟨0, _⟩ => rfl | ⟨1, _⟩ => rfl
/-- The second cut starts at column 1024: its entry `(b, j)` is the product's entry `(b, 1024 + j)`. -/
theorem col_v15 (b : Fin 32768) (j : Fin 1024) :
    idx_main_v15 (ix2 b j) = ix2 b (⟨1024 + j.val, by have := j.isLt; omega⟩ : Fin 3072) :=
  funext fun a => match a with | ⟨0, _⟩ => rfl | ⟨1, _⟩ => rfl
/-- The third cut starts at column 2048: its entry `(b, j)` is the product's entry `(b, 2048 + j)`. -/
theorem col_v16 (b : Fin 32768) (j : Fin 1024) :
    idx_main_v16 (ix2 b j) = ix2 b (⟨2048 + j.val, by have := j.isLt; omega⟩ : Fin 3072) :=
  funext fun a => match a with | ⟨0, _⟩ => rfl | ⟨1, _⟩ => rfl
/-- The hidden side's first cut, as the input side's. -/
theorem col_v17 (b : Fin 32768) (j : Fin 1024) :
    idx_main_v17 (ix2 b j) = ix2 b (⟨j.val, by have := j.isLt; omega⟩ : Fin 3072) :=
  funext fun a => match a with | ⟨0, _⟩ => rfl | ⟨1, _⟩ => rfl
/-- The hidden side's second cut, as the input side's. -/
theorem col_v18 (b : Fin 32768) (j : Fin 1024) :
    idx_main_v18 (ix2 b j) = ix2 b (⟨1024 + j.val, by have := j.isLt; omega⟩ : Fin 3072) :=
  funext fun a => match a with | ⟨0, _⟩ => rfl | ⟨1, _⟩ => rfl
/-- The hidden side's third cut, as the input side's. -/
theorem col_v19 (b : Fin 32768) (j : Fin 1024) :
    idx_main_v19 (ix2 b j) = ix2 b (⟨2048 + j.val, by have := j.isLt; omega⟩ : Fin 3072) :=
  funext fun a => match a with | ⟨0, _⟩ => rfl | ⟨1, _⟩ => rfl

/-- The input side's first cut: the reset gate's input pre-activation. -/
theorem cut_v14 (x : (⟨S32768x1024, .f32⟩ : BufTy).Contents (Elt Ideal))
    (W₁ W₂ W₃ : (⟨S1024x1024, .f32⟩ : BufTy).Contents (Elt Ideal))
    (β₁ β₂ β₃ : (⟨S1024, .f32⟩ : BufTy).Contents (Elt Ideal)) (b : Fin 32768) (j : Fin 1024) :
    val_main_v14 (F := Ideal) x W₁ W₂ W₃ β₁ β₂ β₃ (ix2 b j) = GruCell.affine x W₁ β₁ b j := by
  rw [val_main_v14_apply, col_v14]
  exact block_fst x W₁ W₂ W₃ β₁ β₂ β₃ b j _

/-- The input side's second cut: the update gate's input pre-activation. -/
theorem cut_v15 (x : (⟨S32768x1024, .f32⟩ : BufTy).Contents (Elt Ideal))
    (W₁ W₂ W₃ : (⟨S1024x1024, .f32⟩ : BufTy).Contents (Elt Ideal))
    (β₁ β₂ β₃ : (⟨S1024, .f32⟩ : BufTy).Contents (Elt Ideal)) (b : Fin 32768) (j : Fin 1024) :
    val_main_v15 (F := Ideal) x W₁ W₂ W₃ β₁ β₂ β₃ (ix2 b j) = GruCell.affine x W₂ β₂ b j := by
  rw [val_main_v15_apply, col_v15]
  exact block_snd x W₁ W₂ W₃ β₁ β₂ β₃ b j _

/-- The input side's third cut: the candidate's input pre-activation. -/
theorem cut_v16 (x : (⟨S32768x1024, .f32⟩ : BufTy).Contents (Elt Ideal))
    (W₁ W₂ W₃ : (⟨S1024x1024, .f32⟩ : BufTy).Contents (Elt Ideal))
    (β₁ β₂ β₃ : (⟨S1024, .f32⟩ : BufTy).Contents (Elt Ideal)) (b : Fin 32768) (j : Fin 1024) :
    val_main_v16 (F := Ideal) x W₁ W₂ W₃ β₁ β₂ β₃ (ix2 b j) = GruCell.affine x W₃ β₃ b j := by
  rw [val_main_v16_apply, col_v16]
  exact block_thd x W₁ W₂ W₃ β₁ β₂ β₃ b j _

/-- The hidden side's first cut: the reset gate's hidden pre-activation. -/
theorem cut_v17 (x : (⟨S32768x1024, .f32⟩ : BufTy).Contents (Elt Ideal))
    (W₁ W₂ W₃ : (⟨S1024x1024, .f32⟩ : BufTy).Contents (Elt Ideal))
    (β₁ β₂ β₃ : (⟨S1024, .f32⟩ : BufTy).Contents (Elt Ideal)) (b : Fin 32768) (j : Fin 1024) :
    val_main_v17 (F := Ideal) x W₁ W₂ W₃ β₁ β₂ β₃ (ix2 b j) = GruCell.affine x W₁ β₁ b j := by
  rw [val_main_v17_apply, col_v17, hidden_side]
  exact block_fst x W₁ W₂ W₃ β₁ β₂ β₃ b j _

/-- The hidden side's second cut: the update gate's hidden pre-activation. -/
theorem cut_v18 (x : (⟨S32768x1024, .f32⟩ : BufTy).Contents (Elt Ideal))
    (W₁ W₂ W₃ : (⟨S1024x1024, .f32⟩ : BufTy).Contents (Elt Ideal))
    (β₁ β₂ β₃ : (⟨S1024, .f32⟩ : BufTy).Contents (Elt Ideal)) (b : Fin 32768) (j : Fin 1024) :
    val_main_v18 (F := Ideal) x W₁ W₂ W₃ β₁ β₂ β₃ (ix2 b j) = GruCell.affine x W₂ β₂ b j := by
  rw [val_main_v18_apply, col_v18, hidden_side]
  exact block_snd x W₁ W₂ W₃ β₁ β₂ β₃ b j _

/-- The hidden side's third cut: the candidate's hidden pre-activation. -/
theorem cut_v19 (x : (⟨S32768x1024, .f32⟩ : BufTy).Contents (Elt Ideal))
    (W₁ W₂ W₃ : (⟨S1024x1024, .f32⟩ : BufTy).Contents (Elt Ideal))
    (β₁ β₂ β₃ : (⟨S1024, .f32⟩ : BufTy).Contents (Elt Ideal)) (b : Fin 32768) (j : Fin 1024) :
    val_main_v19 (F := Ideal) x W₁ W₂ W₃ β₁ β₂ β₃ (ix2 b j) = GruCell.affine x W₃ β₃ b j := by
  rw [val_main_v19_apply, col_v19, hidden_side]
  exact block_thd x W₁ W₂ W₃ β₁ β₂ β₃ b j _

end Cuts

/-! ## The reference's result -/

/-- Entry by entry, the reference computes the cell: its six cuts are the six affine pre-activations, and the arithmetic
    after them — two gates `1 / (1 + e^(−a))`, the hyperbolic tangent of the input part plus the reset gate times the
    hidden part, and the blend with the old state — is the cell's own, operation for operation. -/
theorem reference_is_cell
    (x0 x1 : (⟨Cert.ReferenceIdeal.S32768x1024, .f32⟩ : BufTy).Contents (Elt Ideal))
    (x2 x3 x4 x5 x6 x7 : (⟨Cert.ReferenceIdeal.S1024x1024, .f32⟩ : BufTy).Contents (Elt Ideal))
    (x8 x9 x10 x11 x12 x13 : (⟨Cert.ReferenceIdeal.S1024, .f32⟩ : BufTy).Contents (Elt Ideal)) :
    Cert.ReferenceIdeal.Read.val_main_v41 (F := Ideal) x0 x1 x2 x3 x4 x5 x6 x7 x8 x9 x10 x11 x12 x13
      = Cert.GruCell.cell x0 x1 x2 x3 x4 x5 x6 x7 x8 x9 x10 x11 x12 x13 := by
  funext i
  obtain ⟨b, j, rfl⟩ : ∃ (b : Fin 32768) (j : Fin 1024), i = ix2 b j := ⟨i 0, i 1, eq_ix2 i⟩
  rw [GruCell.cell_apply]
  unfold GruCell.cellAt GruCell.candidate GruCell.update GruCell.reset GruCell.gate
  rw [val_main_v41_apply, val_main_v39_apply, val_main_v40_apply, val_main_v38_apply, val_main_v36_apply,
    val_main_v35_apply, val_main_v34_apply, val_main_v33_apply, val_main_v31_apply, val_main_v29_apply,
    val_main_v28_apply, val_main_v27_apply, val_main_v26_apply, val_main_v24_apply, val_main_v22_apply,
    val_main_v21_apply, val_main_v20_apply,
    val_main_v37_apply, val_main_v32_apply, val_main_v30_apply, val_main_v25_apply, val_main_v23_apply,
    val_main_cst_3_apply, val_main_cst_2_apply, val_main_cst_1_apply, val_main_cst_0_apply, val_main_cst_apply,
    cut_v14, cut_v15, cut_v16, cut_v17, cut_v18, cut_v19]
  rfl

end Cert.ReferenceIdeal.RefValue

end
-- ==== Proof.LibBlockLayout.lean ====
/-
  Layout lemmas for any sizes.  Two matrices with the same columns stacked one above the other, read at a row of the
  upper one or of the lower one; and a block of consecutive columns cut out of a matrix, read at a row and a column of
  the block.
-/
import Idealize.ShloMosaic.Lib.ValueIdx
import Idealize.ShloMosaic.Lib.Pipeline.Value

noncomputable section

namespace Cert.Lib.BlockLayout

open Idealize.ShloMosaic Idealize.ShloMosaic.ValueIdx

variable {α : Type}

/-- Two matrices with the same columns, one above the other: a row among the first `a` reads the upper matrix. -/
theorem stacked_upper {a b c n : Nat} (x : (⟨2, ![a, n]⟩ : Shape).Idx → α) (y : (⟨2, ![b, n]⟩ : Shape).Idx → α)
    (h : Shape.Concatenates [(⟨2, ![a, n]⟩ : Shape), ⟨2, ![b, n]⟩] ⟨2, ![c, n]⟩ (0 : Fin 2))
    (r : Fin c) (q : Fin n) (r' : Fin a) (hr : r'.val = r.val) :
    concatenate (⟨2, ![c, n]⟩ : Shape) (0 : Fin 2) [⟨⟨2, ![a, n]⟩, x⟩, ⟨⟨2, ![b, n]⟩, y⟩] h (ix2 r q) = x (ix2 r' q) :=
  concatenate_pair_apply_left (0 : Fin 2) x y h (ix2 r q) rfl (ix2 r' q) (fun d => match d with
    | ⟨0, _⟩ => hr
    | ⟨1, _⟩ => rfl)

/-- Two matrices with the same columns, one above the other: a row past the first `a` reads the lower matrix, `a` rows
    earlier. -/
theorem stacked_lower {a b c n : Nat} (x : (⟨2, ![a, n]⟩ : Shape).Idx → α) (y : (⟨2, ![b, n]⟩ : Shape).Idx → α)
    (h : Shape.Concatenates [(⟨2, ![a, n]⟩ : Shape), ⟨2, ![b, n]⟩] ⟨2, ![c, n]⟩ (0 : Fin 2))
    (r : Fin c) (q : Fin n) (r' : Fin b) (hr : r'.val + a = r.val) :
    concatenate (⟨2, ![c, n]⟩ : Shape) (0 : Fin 2) [⟨⟨2, ![a, n]⟩, x⟩, ⟨⟨2, ![b, n]⟩, y⟩] h (ix2 r q) = y (ix2 r' q) :=
  concatenate_pair_apply_right (0 : Fin 2) x y h (ix2 r q) rfl rfl (ix2 r' q) (fun d hd => match d, hd with
    | ⟨0, _⟩, hd => absurd rfl hd
    | ⟨1, _⟩, _ => rfl) hr

/-- A block of `w` consecutive columns starting at column `c`, every row kept: entry (p, q) of the block is entry
    (p, c + q) of the matrix. -/
theorem columnBlock_apply {n m w c : Nat} (x : (⟨2, ![n, m]⟩ : Shape).Idx → α)
    (h : (⟨2, ![n, m]⟩ : Shape).Slices ![0, c] ⟨2, ![n, w]⟩) (p : Fin n) (q : Fin w) (k : Fin m) (hk : k.val = c + q.val) :
    extractStridedSlice (⟨2, ![n, w]⟩ : Shape) ![0, c] x h (ix2 p q) = x (ix2 p k) :=
  extractStridedSlice_apply ![0, c] x h (ix2 p q) (ix2 p k) (fun a => match a with
    | ⟨0, _⟩ => show p.val = 0 + p.val from (Nat.zero_add _).symm
    | ⟨1, _⟩ => hk)

end Cert.Lib.BlockLayout

end
-- ==== Proof.LibHostMatrix.lean ====
/-
  Host-side readings of vectors and matrices at an index, for any sizes: a vector reshaped to a one-row matrix, a
  matrix transposed, a scalar constant broadcast to any shape, and — on the extended reals — the host's sum of a
  matrix along its last axis as the initial value plus the finite sum of the row.
-/
import Idealize.ShloMosaic.Lib.ValueIdx
import Idealize.ShloMosaic.Lib.Pipeline.Value
import Idealize.ShloMosaic.PureOps.Ideal.Laws

noncomputable section

open scoped BigOperators

namespace Cert.Lib.HostMatrix

open Idealize.ShloMosaic Idealize.ShloMosaic.ValueIdx

/-- A vector reshaped to a one-row matrix: entry (0, q) is the vector's entry q. -/
theorem rowOfVec_apply {α : Type} {b : Nat} (v : (⟨1, ![b]⟩ : Shape).Idx → α)
    (h : (⟨1, ![b]⟩ : Shape).ShapeCasts ⟨2, ![1, b]⟩) (z : Fin 1) (q : Fin b) :
    shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- A matrix transposed: entry (p, q) of the transpose is entry (q, p). -/
theorem transposed_apply {α : Type} {a b : Nat} (x : (⟨2, ![a, b]⟩ : Shape).Idx → α)
    (h : (⟨2, ![a, b]⟩ : Shape).Transposes [(1 : Fin 2), 0] ⟨2, ![b, a]⟩) (p : Fin b) (q : Fin a) :
    transpose (⟨2, ![b, a]⟩ : Shape) [(1 : Fin 2), 0] x h (ix2 p q) = x (ix2 q p) :=
  transpose_apply [(1 : Fin 2), 0] x h (ix2 p q) (ix2 q p) (fun d => match d with
    | ⟨0, _⟩ => rfl
    | ⟨1, _⟩ => rfl)

/-- A scalar constant broadcast to any shape: every entry is the constant's value. -/
theorem splat_apply {s : Shape} (h : (⟨0, ![]⟩ : Shape).BroadcastsInDim s (![] : Fin 0 → Fin s.rank)) (w : BitVec 32)
    (j : s.Idx) : broadcastInDim s ![] h (constant (F := Ideal) ⟨0, ![]⟩ .f32 w) j = Ideal.ofBits .f32 w :=
  broadcastInDim_apply _ h _ j ix0 (fun a => a.elim0)

/-- Over a row index p, the source index of a reduction along the last axis with coordinate k appends k. -/
theorem lift_lastAxis {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

/-- The host's sum of a matrix along its last axis, at row p: the initial value plus the finite sum of the row. -/
theorem hostSum_last2 {a b : ℕ} {φ : FTy} (x : FVec Ideal ⟨2, ![a, b]⟩ φ) (v : (⟨0, ![]⟩ : Shape).Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduceAdd x v h' hu (ix1 p) = v ix0 + ∑ k : Fin b, x (ix2 p k) := by
  show Ideal.hostReduceAdd h' x (v (Shape.Idx.first hu)) (ix1 p) = _
  rw [Ideal.hostReduceAdd_single h' h, eq_ix0 (Shape.Idx.first hu)]
  exact congrArg (v ix0 + ·) (Finset.sum_congr rfl fun k _ => congrArg x (lift_lastAxis h p k))

end Cert.Lib.HostMatrix

end
-- ==== Proof.LibVecConcat.lean ====
/-
  Two vectors laid end to end, read at an index, and a sum over `Fin n` split at a cut.

  The concatenation of `x : [a]` and `y : [b]` along their one axis, of total length `n`, is `x` at a position below `a`
  (`concat_vec_left`) and `y` at `a + q` (`concat_vec_right`); a sum over `Fin n` with `a + b = n` is the sum over the first
  `a` positions plus the sum over the last `b` (`sum_fin_split`). For any sizes.
-/
import Idealize.ShloMosaic.Lib.ValueIdx
import Idealize.ShloMosaic.Lib.Pipeline.Value

open scoped BigOperators

namespace Idealize.ShloMosaic.VecConcat

open Idealize.ShloMosaic Idealize.ShloMosaic.ValueIdx

variable {α : Type}

/-- A position in the first piece reads the first vector there. -/
theorem concat_vec_left {a b n : Nat} (x : (⟨1, ![a]⟩ : Shape).Idx → α) (y : (⟨1, ![b]⟩ : Shape).Idx → α)
    (h : Shape.Concatenates [(⟨1, ![a]⟩ : Shape), ⟨1, ![b]⟩] ⟨1, ![n]⟩ 0) (p : Fin a) (hp : p.val < n) :
    concatenate (⟨1, ![n]⟩ : Shape) 0 [⟨⟨1, ![a]⟩, x⟩, ⟨⟨1, ![b]⟩, y⟩] h (ix1 (⟨p.val, hp⟩ : Fin n)) = x (ix1 p) :=
  concatenate_pair_apply_left 0 x y h (ix1 (⟨p.val, hp⟩ : Fin n)) rfl (ix1 p) (fun d => match d with | ⟨0, _⟩ => rfl)

/-- A position `a + q` reads the second vector at `q`. -/
theorem concat_vec_right {a b n : Nat} (x : (⟨1, ![a]⟩ : Shape).Idx → α) (y : (⟨1, ![b]⟩ : Shape).Idx → α)
    (h : Shape.Concatenates [(⟨1, ![a]⟩ : Shape), ⟨1, ![b]⟩] ⟨1, ![n]⟩ 0) (q : Fin b) (hq : a + q.val < n) :
    concatenate (⟨1, ![n]⟩ : Shape) 0 [⟨⟨1, ![a]⟩, x⟩, ⟨⟨1, ![b]⟩, y⟩] h (ix1 (⟨a + q.val, hq⟩ : Fin n)) = y (ix1 q) :=
  concatenate_pair_apply_right 0 x y h (ix1 (⟨a + q.val, hq⟩ : Fin n)) rfl rfl (ix1 q)
    (fun d => match d with | ⟨0, _⟩ => fun hd => absurd rfl hd)
    (by show q.val + a = a + q.val; omega)

/-- A sum over `Fin n` split at `a`. -/
theorem sum_fin_split {M : Type*} [AddCommMonoid M] {a b n : Nat} (hn : a + b = n) (f : Fin n → M) :
    ∑ e : Fin n, f e = ∑ p : Fin a, f ⟨p.val, by omega⟩ + ∑ q : Fin b, f ⟨a + q.val, by omega⟩ := by
  subst hn
  rw [Fin.sum_univ_add]
  rfl

end Idealize.ShloMosaic.VecConcat
-- ==== Proof.FusedOperands.lean ====
/-
  The arrays the host prepares for the body, as functions of the cell's weights and biases, read at an index.

  The reset and update gates share one contraction.  Its 2048 × 2048 matrix is built from the four weight matrices: each
  side's reset weight is stacked above its update weight (2048 × 1024) and transposed (1024 × 2048), and the input side's
  transposed stack is stacked above the hidden side's.  So its entry (k, c) in the upper half of the rows is entry (c, k)
  of the input side's stack and, 1024 rows further down, of the hidden side's; and a stack's row c is row c of the reset
  weight for c < 1024, row c − 1024 of the update weight otherwise.  The shared bias row is the input side's two bias
  vectors end to end plus the hidden side's, written as one row.  The candidate's two matrices are plain transposes, and
  its two bias rows plain vectors written as rows.  Changing the format of a matrix's entries is the identity on the
  extended reals.
-/
import proofs.«125904_j82231443849805_2_alg».proof.Proof.Gen.KernelIdeal
import proofs.«125904_j82231443849805_2_alg».proof.Proof.LibBlockLayout
import proofs.«125904_j82231443849805_2_alg».proof.Proof.LibHostMatrix
import proofs.«125904_j82231443849805_2_alg».proof.Proof.LibVecConcat
import Idealize.ShloMosaic.Lib.ValueIdx
import Idealize.ShloMosaic.Lib.Pipeline.Value
import Idealize.ShloMosaic.PureOps.Ideal

noncomputable section

namespace Cert.KernelIdeal.Operands

open Cert.KernelIdeal Cert.KernelIdeal.Gen Idealize.ShloMosaic Idealize.ShloMosaic.ValueIdx

/-- One side's reset weight stacked above its update weight, transposed: 1024 × 2048. -/
def sideT (Wr Wz : FVec Ideal S1024x1024 .f32) : FVec Ideal S1024x2048 .f32 :=
  transpose S1024x2048 [1, 0]
    (concatenate S2048x1024 0 [⟨S1024x1024, Wr⟩, ⟨S1024x1024, Wz⟩] concatenates_S1024x1024_S1024x1024_S2048x1024_d0)
    transposes_S2048x1024_S1024x2048_1_0

/-- The shared contraction's matrix: the input side's transposed stack above the hidden side's. -/
def fusedWeight (Wir Wiz Whr Whz : FVec Ideal S1024x1024 .f32) : FVec Ideal S2048x2048 .bf16 :=
  truncf .bf16
    (concatenate S2048x2048 0 [⟨S1024x2048, sideT Wir Wiz⟩, ⟨S1024x2048, sideT Whr Whz⟩]
      concatenates_S1024x2048_S1024x2048_S2048x2048_d0) bitsLt_bf16_f32

/-- The shared bias row: the two sides' bias vectors, each reset-then-update end to end, added, as a 1 × 2048 row. -/
def fusedBias (βir βiz βhr βhz : FVec Ideal S1024 .f32) : FVec Ideal S1x2048 .f32 :=
  shapeCast S1x2048
    (addf (concatenate S2048 0 [⟨S1024, βir⟩, ⟨S1024, βiz⟩] concatenates_S1024_S1024_S2048_d0)
      (concatenate S2048 0 [⟨S1024, βhr⟩, ⟨S1024, βhz⟩] concatenates_S1024_S1024_S2048_d0))
    shapeCasts_S2048_S1x2048

/-- A candidate weight as the body contracts it: transposed. -/
def plainWeight (W : FVec Ideal S1024x1024 .f32) : FVec Ideal S1024x1024 .bf16 :=
  truncf .bf16 (transpose S1024x1024 [1, 0] W transposes_S1024x1024_S1024x1024_1_0) bitsLt_bf16_f32

/-- A candidate bias as the body adds it: a 1 × 1024 row. -/
def plainBias (β : FVec Ideal S1024 .f32) : FVec Ideal S1x1024 .f32 := shapeCast S1x1024 β shapeCasts_S1024_S1x1024

variable (Wr Wz : FVec Ideal S1024x1024 .f32)

/-- Column `q` of a transposed stack is row `q` of the reset weight. -/
theorem sideT_reset (k q : Fin 1024) : sideT Wr Wz (ix2 k (⟨q.val, by omega⟩ : Fin 2048)) = Wr (ix2 q k) := by
  unfold sideT
  rw [Cert.Lib.HostMatrix.transposed_apply _ transposes_S2048x1024_S1024x2048_1_0 k (⟨q.val, by omega⟩ : Fin 2048),
    Cert.Lib.BlockLayout.stacked_upper Wr Wz concatenates_S1024x1024_S1024x1024_S2048x1024_d0 (⟨q.val, by omega⟩ : Fin 2048) k q rfl]

/-- Column `1024 + q` of a transposed stack is row `q` of the update weight. -/
theorem sideT_update (k q : Fin 1024) : sideT Wr Wz (ix2 k (⟨1024 + q.val, by omega⟩ : Fin 2048)) = Wz (ix2 q k) := by
  unfold sideT
  rw [Cert.Lib.HostMatrix.transposed_apply _ transposes_S2048x1024_S1024x2048_1_0 k (⟨1024 + q.val, by omega⟩ : Fin 2048),
    Cert.Lib.BlockLayout.stacked_lower Wr Wz concatenates_S1024x1024_S1024x1024_S2048x1024_d0 (⟨1024 + q.val, by omega⟩ : Fin 2048) k q
      (show q.val + 1024 = 1024 + q.val from Nat.add_comm _ _)]

variable (Wir Wiz Whr Whz : FVec Ideal S1024x1024 .f32)

/-- The upper 1024 rows of the shared matrix are the input side's transposed stack. -/
theorem fusedWeight_upper (k : Fin 1024) (c : Fin 2048) :
    fusedWeight Wir Wiz Whr Whz (ix2 (⟨k.val, by omega⟩ : Fin 2048) c) = sideT Wir Wiz (ix2 k c) := by
  unfold fusedWeight
  rw [truncf_apply, Cert.Lib.BlockLayout.stacked_upper (sideT Wir Wiz) (sideT Whr Whz)
    concatenates_S1024x2048_S1024x2048_S2048x2048_d0 (⟨k.val, by omega⟩ : Fin 2048) c k rfl]

/-- The lower 1024 rows of the shared matrix are the hidden side's transposed stack. -/
theorem fusedWeight_lower (k : Fin 1024) (c : Fin 2048) :
    fusedWeight Wir Wiz Whr Whz (ix2 (⟨1024 + k.val, by omega⟩ : Fin 2048) c) = sideT Whr Whz (ix2 k c) := by
  unfold fusedWeight
  rw [truncf_apply, Cert.Lib.BlockLayout.stacked_lower (sideT Wir Wiz) (sideT Whr Whz)
    concatenates_S1024x2048_S1024x2048_S2048x2048_d0 (⟨1024 + k.val, by omega⟩ : Fin 2048) c k
    (show k.val + 1024 = 1024 + k.val from Nat.add_comm _ _)]

variable (βir βiz βhr βhz : FVec Ideal S1024 .f32)

/-- The shared bias row at a reset column: the two sides' reset biases, added. -/
theorem fusedBias_reset (q : Fin 1024) :
    fusedBias βir βiz βhr βhz (ix2 (0 : Fin 1) (⟨q.val, by omega⟩ : Fin 2048)) = βir (ix1 q) + βhr (ix1 q) := by
  unfold fusedBias
  rw [Cert.Lib.HostMatrix.rowOfVec_apply _ shapeCasts_S2048_S1x2048 (0 : Fin 1) (⟨q.val, by omega⟩ : Fin 2048), addf_apply,
    Idealize.ShloMosaic.VecConcat.concat_vec_left βir βiz concatenates_S1024_S1024_S2048_d0 q (by omega),
    Idealize.ShloMosaic.VecConcat.concat_vec_left βhr βhz concatenates_S1024_S1024_S2048_d0 q (by omega)]

/-- The shared bias row at an update column: the two sides' update biases, added. -/
theorem fusedBias_update (q : Fin 1024) :
    fusedBias βir βiz βhr βhz (ix2 (0 : Fin 1) (⟨1024 + q.val, by omega⟩ : Fin 2048)) = βiz (ix1 q) + βhz (ix1 q) := by
  unfold fusedBias
  rw [Cert.Lib.HostMatrix.rowOfVec_apply _ shapeCasts_S2048_S1x2048 (0 : Fin 1) (⟨1024 + q.val, by omega⟩ : Fin 2048), addf_apply,
    Idealize.ShloMosaic.VecConcat.concat_vec_right βir βiz concatenates_S1024_S1024_S2048_d0 q (by omega),
    Idealize.ShloMosaic.VecConcat.concat_vec_right βhr βhz concatenates_S1024_S1024_S2048_d0 q (by omega)]

/-- A candidate matrix as contracted holds the weight transposed. -/
theorem plainWeight_apply (W : FVec Ideal S1024x1024 .f32) (k q : Fin 1024) : plainWeight W (ix2 k q) = W (ix2 q k) := by
  unfold plainWeight
  rw [truncf_apply, Cert.Lib.HostMatrix.transposed_apply W transposes_S1024x1024_S1024x1024_1_0 k q]

/-- A candidate bias row holds the bias vector. -/
theorem plainBias_apply (β : FVec Ideal S1024 .f32) (q : Fin 1024) : plainBias β (ix2 (0 : Fin 1) q) = β (ix1 q) := by
  unfold plainBias
  rw [Cert.Lib.HostMatrix.rowOfVec_apply β shapeCasts_S1024_S1x1024 (0 : Fin 1) q]

end Cert.KernelIdeal.Operands

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibSideBySide.lean ====
/-
  Layout and clamp lemmas for any sizes.  Two matrices with the same rows laid side by side, read at a column of
  the first or of the second; a sum over a + b positions split into the first a and the last b; a one-column matrix read
  as a vector; a scalar spread over any shape; the select on the comparison x ≥ 0 as an if-then-else; and the two
  spellings of a leaky clamp (branching on 0 ≤ x or on 0 < x), equal because both give 0 at 0.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

variable {α : Type}

/-- Two arrays with the same rows laid side by side: a column in the first a columns reads the first array. -/
theorem sideBySide_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin a) (hk : k'.val = k.val) :
    concatenate (⟨2, ![n, c]⟩ : Shape) (1 : Fin 2) [⟨⟨2, ![n, a]⟩, x⟩, ⟨⟨2, ![n, b]⟩, y⟩] h (ix2 p k) = x (ix2 p k') :=
  concatenate_pair_apply_left (1 : Fin 2) x y h (ix2 p k) rfl (ix2 p k') (fun d => match d with
    | ⟨0, _⟩ => rfl
    | ⟨1, _⟩ => hk)

/-- Two arrays with the same rows laid side by side: a column past the first a reads the second array, a columns
    earlier. -/
theorem sideBySide_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin b) (hk : k'.val + a = k.val) :
    concatenate (⟨2, ![n, c]⟩ : Shape) (1 : Fin 2) [⟨⟨2, ![n, a]⟩, x⟩, ⟨⟨2, ![n, b]⟩, y⟩] h (ix2 p k) = y (ix2 p k') :=
  concatenate_pair_apply_right (1 : Fin 2) x y h (ix2 p k) rfl rfl (ix2 p k') (fun d hd => match d, hd with
    | ⟨0, _⟩, _ => rfl
    | ⟨1, _⟩, hd => absurd rfl hd) hk

/-- A sum over a + b positions is the sum over the first a plus the sum over the last b. -/
theorem sum_split {M : Type*} [AddCommMonoid M] {a b c : Nat} (hc : a + b = c) (f : Fin c → M) :
    ∑ k : Fin c, f k = (∑ k : Fin a, f ⟨k.val, by omega⟩) + ∑ k : Fin b, f ⟨a + k.val, by omega⟩ := by
  subst hc
  rw [Fin.sum_univ_add]
  rfl

/-- A one-column matrix read as a vector: entry p is the matrix's entry (p, 0). -/
theorem colAsVec_apply {a : Nat} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A scalar spread over any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply (![] : Fin 0 → Fin t.rank) h x j ix0 (fun a => a.elim0)

/-- The two leaky clamps agree: at 0 one takes the branch x, the other c · x, and both are 0. -/
theorem leaky_of_ge (c x : EReal) : (if 0 ≤ x then x else c * x) = (if 0 < x then x else c * x) := by
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- A select on the comparison "x ≥ 0" (0 as its f32 pattern) is the if-then-else on 0 ≤ x. -/
theorem select_oge_zero {β : Type} (x : EReal) (a b : β) :
    Scalar.select (FloatOps.cmpf (F := Ideal) (φ := .f32) .oge x (Ideal.ofBits .f32 0x00000000#32)) a b
      = if 0 ≤ x then a else b := by
  rw [Ideal.ofBits_zero_f32]
  show Scalar.select (Ideal.cmp .oge x 0) a b = _
  unfold Ideal.cmp
  by_cases h : (0 : EReal) ≤ x
  · rw [if_pos h]; simp only [decide_eq_true h, BitVec.ofBool_true]; exact select_one a b
  · rw [if_neg h]; simp only [decide_eq_false h, BitVec.ofBool_false]; exact select_zero a b

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.BlockPayload.lean ====
/-
  What one grid point's block of the result holds, entry by entry, as a function of the blocks the body loads.

  The body loads 256 rows of the inputs `x` and of the hidden states `h`, and — whole — a 2048 × 2048 matrix `w`, two
  1024 × 1024 matrices and three bias rows.  It lays the two row blocks side by side (256 × 2048) and contracts them with
  `w`: column `c` of that product is the sum over the first 1024 positions of `x[p, k] · w[k, c]` plus the sum over the
  last 1024 of `h[p, k] · w[1024 + k, c]`; with the bias row added this is the FUSED pre-activation, whose columns
  `q` feed the reset gate and whose columns `1024 + q` feed the update gate.  The candidate's two pre-activations are plain
  products of one row block with one matrix plus a bias row.  Format changes of the loaded values are the identity on the
  extended reals, and a contraction into a zero accumulator is the plain sum.
-/
import proofs.«125904_j82231443849805_2_alg».proof.Proof.Gen.KernelIdeal.Skeleton
import proofs.«125904_j82231443849805_2_alg».proof.Proof.LibPlainDot
import proofs.«125904_j82231443849805_2_alg».proof.Proof.LibSideBySide
import proofs.«125904_j82231443849805_2_alg».proof.Proof.LibRank2Layout
import proofs.«125904_j82231443849805_2_alg».proof.Proof.LibBlockLayout
import Idealize.ShloMosaic.Lib.ValueIdx
import Idealize.ShloMosaic.Lib.Pipeline.Value
import Idealize.ShloMosaic.PureOps.Ideal.Laws

open scoped BigOperators

noncomputable section

namespace Cert.KernelIdeal.Block

open Cert.KernelIdeal Cert.KernelIdeal.Gen Idealize.ShloMosaic Idealize.ShloMosaic.ValueIdx

/-- The fused pre-activation at row `p` of the block and column `c` of the 2048: the inputs' row against the upper half
    of column `c`, the hidden states' row against its lower half, plus the fused bias. -/
def fusedPre (x0 x1 : FVec Ideal S256x1024 .f32) (w : FVec Ideal S2048x2048 .bf16) (β : FVec Ideal S1x2048 .f32)
    (p : Fin 256) (c : Fin 2048) : EReal :=
  ((∑ k : Fin 1024, x0 (ix2 p k) * w (ix2 (⟨k.val, by omega⟩ : Fin 2048) c))
    + ∑ k : Fin 1024, x1 (ix2 p k) * w (ix2 (⟨1024 + k.val, by omega⟩ : Fin 2048) c)) + β (ix2 (0 : Fin 1) c)

/-- A plain pre-activation: row `p` of a row block against column `q` of a matrix, plus the bias row's entry `q`. -/
def plainPre (x : FVec Ideal S256x1024 .f32) (w : FVec Ideal S1024x1024 .bf16) (β : FVec Ideal S1x1024 .f32)
    (p : Fin 256) (q : Fin 1024) : EReal :=
  (∑ k : Fin 1024, x (ix2 p k) * w (ix2 k q)) + β (ix2 (0 : Fin 1) q)

/-- The two row blocks laid side by side and contracted with the 2048 × 2048 matrix, into a zero accumulator: the sum
    over 2048 positions splits at 1024 into the inputs' part and the hidden states' part. -/
theorem fused_dot (x0 x1 : FVec Ideal S256x1024 .bf16) (w : FVec Ideal S2048x2048 .bf16) (p : Fin 256) (c : Fin 2048) :
    FloatOps.matmul (F := Ideal) dot_S256x2048_S2048x2048_S256x2048_1_0_0_1_n_n none
        (concatenate S256x2048 1 [⟨S256x1024, x0⟩, ⟨S256x1024, x1⟩] concatenates_S256x1024_S256x1024_S256x2048_d1) w
        (constant (F := Ideal) S256x2048 .f32 0x00000000#32) (ix2 p c)
      = (∑ k : Fin 1024, x0 (ix2 p k) * w (ix2 (⟨k.val, by omega⟩ : Fin 2048) c))
        + ∑ k : Fin 1024, x1 (ix2 p k) * w (ix2 (⟨1024 + k.val, by omega⟩ : Fin 2048) c) := by
  rw [Cert.Bridge.matmul_zero_plain _ rfl rfl rfl rfl rfl rfl, Cert.Bridge.sum_split (show 1024 + 1024 = 2048 from rfl)]
  congr 1
  · refine Finset.sum_congr rfl fun k _ => ?_
    rw [Cert.Bridge.sideBySide_left x0 x1 concatenates_S256x1024_S256x1024_S256x2048_d1 p (⟨k.val, by omega⟩ : Fin 2048) k rfl]
  · refine Finset.sum_congr rfl fun k _ => ?_
    rw [Cert.Bridge.sideBySide_right x0 x1 concatenates_S256x1024_S256x1024_S256x2048_d1 p (⟨1024 + k.val, by omega⟩ : Fin 2048) k
      (show k.val + 1024 = 1024 + k.val from Nat.add_comm _ _)]

/-- The hyperbolic tangent of an array is taken entry by entry. -/
theorem tanh_at {s : Shape} {φ : FTy} (v : FVec Ideal s φ) (i : s.Idx) : tanh v i = Ideal.tanh (v i) := rfl
/-- The gate nonlinearity of an array is taken entry by entry. -/
theorem logistic_at {s : Shape} {φ : FTy} (v : FVec Ideal s φ) (i : s.Idx) : logistic v i = Ideal.logistic (v i) := rfl

/-- ENTRY (p, q) OF THE BLOCK THE BODY STORES: the update gate (columns 1024 + q of the fused pre-activation) blends the
    candidate — the inputs' plain pre-activation plus the reset gate (columns q) times the hidden states' — with the
    hidden state's entry. -/
theorem payload_apply (x0 x1 : Vec Ideal S256x1024 .f32) (w : Vec Ideal S2048x2048 .bf16) (β : Vec Ideal S1x2048 .f32)
    (wn : Vec Ideal S1024x1024 .bf16) (βn : Vec Ideal S1x1024 .f32) (wh : Vec Ideal S1024x1024 .bf16)
    (βh : Vec Ideal S1x1024 .f32) (p : Fin 256) (q : Fin 1024) :
    k0_pay1 (F := Ideal) x0 x1 w β wn βn wh βh (ix2 p q)
      = (Ideal.ofBits .f32 0x3F800000#32 - Ideal.logistic (fusedPre x0 x1 w β p (⟨1024 + q.val, by omega⟩ : Fin 2048)))
          * Ideal.tanh (plainPre x0 wn βn p q
              + Ideal.logistic (fusedPre x0 x1 w β p (⟨q.val, by omega⟩ : Fin 2048)) * plainPre x1 wh βh p q)
        + Ideal.logistic (fusedPre x0 x1 w β p (⟨1024 + q.val, by omega⟩ : Fin 2048)) * x1 (ix2 p q) := by
  unfold k0_pay1
  simp only [addf_apply, mulf_apply, subf_apply, broadcast_apply, tanh_at, logistic_at, shapeCast_self]
  rw [Cert.Lib.BlockLayout.columnBlock_apply _ slices_S256x2048_o0_1024_S256x1024 p q (⟨1024 + q.val, by omega⟩ : Fin 2048) rfl,
    Cert.Lib.BlockLayout.columnBlock_apply _ slices_S256x2048_o0_0_S256x1024 p q (⟨q.val, by omega⟩ : Fin 2048)
      (Nat.zero_add _).symm]
  simp only [addf_apply, fused_dot, Idealize.ShloMosaic.Rank2.bcastRow_apply,
    Cert.Bridge.matmul_zero_plain dot_S256x1024_S1024x1024_S256x1024_1_0_0_1_n_n rfl rfl rfl rfl rfl rfl, truncf_apply]
  rfl

end Cert.KernelIdeal.Block

end
-- ==== Proof.LibLogisticTanh.lean ====
/-
  The logistic function through the hyperbolic tangent, on the extended reals:

      1/2 · (tanh (1/2 · x) + 1) = 1 / (1 + e^(-x))        for EVERY extended real x.

  On a real x, with y = x/2: (tanh y + 1)/2 = e^y / (e^y + e^(-y)) = 1 / (1 + e^(-2y)). At +∞ both sides are 1
  (tanh ⊤ = 1; e^(-⊤) = 0), at -∞ both are 0 (tanh ⊥ = -1; 1 / (1 + ⊤) = 0). So a program that spells the logistic
  function with one tanh and a program that spells it with an exponential and a quotient agree with no finiteness
  assumption on the argument. Stated over the reals, over the extended reals, and over the f32 patterns of 0.5 and 1.0.
-/
import Idealize.ShloMosaic.PureOps.Ideal

noncomputable section

namespace Cert.LibLogisticTanh

open Idealize.ShloMosaic

/-- The f32 pattern of 0.5 denotes 1/2. -/
theorem ofBits_half : Ideal.ofBits .f32 0x3F000000#32 = ((1 / 2 : ℝ) : EReal) := by
  simp [Ideal.ofBits, Ideal.ieee, -EReal.coe_mul]; norm_num

/-- The f32 pattern of 1.0 denotes 1. -/
theorem ofBits_one : Ideal.ofBits .f32 0x3F800000#32 = (1 : EReal) := by
  rw [← EReal.coe_one]; simp [Ideal.ofBits, Ideal.ieee, -EReal.coe_mul, -EReal.coe_one]; norm_num

/-- (tanh y + 1) / 2 = 1 / (1 + e^(-2y)) on the reals: multiply numerator and denominator of e^y / (e^y + e^(-y)) by e^(-y). -/
theorem half_tanh_add_one (y : ℝ) : 1 / 2 * (Real.tanh y + 1) = (1 + Real.exp (-(2 * y)))⁻¹ := by
  have hpos : 0 < Real.exp y := Real.exp_pos y
  have hneg : Real.exp (-y) = (Real.exp y)⁻¹ := Real.exp_neg y
  have h2 : Real.exp (-(2 * y)) = (Real.exp y)⁻¹ * (Real.exp y)⁻¹ := by
    rw [← hneg, ← Real.exp_add]; congr 1; ring
  rw [Real.tanh_eq_sinh_div_cosh, Real.sinh_eq, Real.cosh_eq, hneg, h2]
  have hne : Real.exp y ≠ 0 := hpos.ne'
  have hsum : Real.exp y * Real.exp y + 1 ≠ 0 := by positivity
  field_simp
  ring

/-- 1/2 · (tanh (1/2 · x) + 1) is the logistic function of x, at every extended real. -/
theorem half_tanh_half_eq_logistic (x : EReal) :
    ((1 / 2 : ℝ) : EReal) * (Ideal.tanh (((1 / 2 : ℝ) : EReal) * x) + 1) = Ideal.logistic x := by
  induction x using EReal.rec with
  | bot =>
    rw [EReal.coe_mul_bot_of_pos (by norm_num), Ideal.tanh_bot, Ideal.logistic_bot]
    rw [show ((-1 : EReal)) = ((-1 : ℝ) : EReal) from by rw [EReal.coe_neg, EReal.coe_one], ← EReal.coe_one,
      ← EReal.coe_add, ← EReal.coe_mul]
    norm_num
  | top =>
    rw [EReal.coe_mul_top_of_pos (by norm_num), Ideal.tanh_top, Ideal.logistic_top]
    rw [← EReal.coe_one, ← EReal.coe_add, ← EReal.coe_mul]
    norm_num
  | coe r =>
    rw [← EReal.coe_mul, Ideal.tanh_coe, ← EReal.coe_one, ← EReal.coe_add, ← EReal.coe_mul, Ideal.logistic_coe,
      half_tanh_add_one]
    congr 4; ring

/-- The same with 0.5 and 1.0 as f32 patterns: the tanh spelling of a float program. -/
theorem tanh_spelling_f32 (x : EReal) :
    Ideal.ofBits .f32 0x3F000000#32 * (Ideal.tanh (Ideal.ofBits .f32 0x3F000000#32 * x) + Ideal.ofBits .f32 0x3F800000#32)
      = Ideal.logistic x := by
  rw [ofBits_half, ofBits_one, half_tanh_half_eq_logistic]

/-- The exponential spelling of a float program, 1.0 / (1.0 + e^(-x)) with 1.0 as its f32 pattern, is the logistic
    function by definition. -/
theorem exp_spelling_f32 (x : EReal) :
    Ideal.div (Ideal.ofBits .f32 0x3F800000#32) (Ideal.ofBits .f32 0x3F800000#32 + Ideal.exp (-x)) = Ideal.logistic x := by
  rw [ofBits_one]; rfl

end Cert.LibLogisticTanh

end
-- ==== Proof.CellAlgebra.lean ====
/-
  The block the body stores is the cell, entry by entry — the algebra.

  Suppose row `p` of the two loaded row blocks is row `B` of the inputs and of the hidden states, the loaded 2048 × 2048
  matrix holds in its column `c` the row `j` of an input-side weight (upper half) over the row `j` of the matching
  hidden-side weight (lower half), and the fused bias row holds at `c` the SUM of the two sides' bias entries.  Then the
  fused pre-activation at (p, c) is the sum of the two sides' affine pre-activations at (B, j):
      (S_x + S_h) + (β_x + β_h) = (S_x + β_x) + (S_h + β_h),
  a regrouping of four summands, valid in any commutative monoid — so also where a sum is infinite.  The candidate's plain
  pre-activations are affine pre-activations as they stand, and the gate's nonlinearity `logistic` is `1 / (1 + e^(−a))`
  with 1 the word of 1.0, on every extended real.  Hence the stored entry (p, q) is the cell's entry (B, q).
-/
import proofs.«125904_j82231443849805_2_alg».proof.Proof.GruCell
import proofs.«125904_j82231443849805_2_alg».proof.Proof.BlockPayload
import proofs.«125904_j82231443849805_2_alg».proof.Proof.LibLogisticTanh

open scoped BigOperators

noncomputable section

namespace Cert.KernelIdeal.Block

open Cert.KernelIdeal Cert.KernelIdeal.Gen Idealize.ShloMosaic Idealize.ShloMosaic.ValueIdx Cert.GruCell

/-- The fused pre-activation at a column that pairs row `j` of an input-side weight with row `j` of a hidden-side
    weight is the sum of the two sides' affine pre-activations: four summands regrouped. -/
theorem fusedPre_eq_affines (x0 x1 : FVec Ideal S256x1024 .f32) (w : FVec Ideal S2048x2048 .bf16) (β : FVec Ideal S1x2048 .f32)
    (X H : Acts.Idx → EReal) (Wi Wh : Wt.Idx → EReal) (βi βh : Bs.Idx → EReal)
    (p : Fin 256) (B : Fin 32768) (c : Fin 2048) (j : Fin 1024)
    (h0 : ∀ k : Fin 1024, x0 (ix2 p k) = X (ix2 B k)) (h1 : ∀ k : Fin 1024, x1 (ix2 p k) = H (ix2 B k))
    (hwi : ∀ k : Fin 1024, w (ix2 (⟨k.val, by omega⟩ : Fin 2048) c) = Wi (ix2 j k))
    (hwh : ∀ k : Fin 1024, w (ix2 (⟨1024 + k.val, by omega⟩ : Fin 2048) c) = Wh (ix2 j k))
    (hβ : β (ix2 (0 : Fin 1) c) = βi (ix1 j) + βh (ix1 j)) :
    fusedPre x0 x1 w β p c = affine X Wi βi B j + affine H Wh βh B j := by
  unfold fusedPre affine
  simp only [h0, h1, hwi, hwh, hβ]
  exact add_add_add_comm _ _ _ _

/-- A plain pre-activation is an affine pre-activation when the matrix holds the weight transposed. -/
theorem plainPre_eq_affine (x : FVec Ideal S256x1024 .f32) (w : FVec Ideal S1024x1024 .bf16) (β : FVec Ideal S1x1024 .f32)
    (X : Acts.Idx → EReal) (W : Wt.Idx → EReal) (βv : Bs.Idx → EReal) (p : Fin 256) (B : Fin 32768) (q : Fin 1024)
    (h0 : ∀ k : Fin 1024, x (ix2 p k) = X (ix2 B k)) (hw : ∀ k : Fin 1024, w (ix2 k q) = W (ix2 q k))
    (hβ : β (ix2 (0 : Fin 1) q) = βv (ix1 q)) :
    plainPre x w β p q = affine X W βv B q := by
  unfold plainPre affine
  simp only [h0, hw, hβ]

/-- THE STORED ENTRY IS THE CELL'S: under the hypotheses on what the loaded blocks hold, entry (p, q) of the block the
    body stores is the cell's new hidden state at batch row `B`, entry `q`. -/
theorem payload_is_cell (x0 x1 : Vec Ideal S256x1024 .f32) (w : Vec Ideal S2048x2048 .bf16) (β : Vec Ideal S1x2048 .f32)
    (wn : Vec Ideal S1024x1024 .bf16) (βn : Vec Ideal S1x1024 .f32) (wh : Vec Ideal S1024x1024 .bf16)
    (βh : Vec Ideal S1x1024 .f32)
    (X H : Acts.Idx → EReal) (Wir Whr Wiz Whz Win Whn : Wt.Idx → EReal) (βir βhr βiz βhz βin βhn : Bs.Idx → EReal)
    (p : Fin 256) (B : Fin 32768) (q : Fin 1024)
    (h0 : ∀ k : Fin 1024, x0 (ix2 p k) = X (ix2 B k)) (h1 : ∀ k : Fin 1024, x1 (ix2 p k) = H (ix2 B k))
    (hir : ∀ k : Fin 1024, w (ix2 (⟨k.val, by omega⟩ : Fin 2048) (⟨q.val, by omega⟩ : Fin 2048)) = Wir (ix2 q k))
    (hhr : ∀ k : Fin 1024, w (ix2 (⟨1024 + k.val, by omega⟩ : Fin 2048) (⟨q.val, by omega⟩ : Fin 2048)) = Whr (ix2 q k))
    (hiz : ∀ k : Fin 1024, w (ix2 (⟨k.val, by omega⟩ : Fin 2048) (⟨1024 + q.val, by omega⟩ : Fin 2048)) = Wiz (ix2 q k))
    (hhz : ∀ k : Fin 1024, w (ix2 (⟨1024 + k.val, by omega⟩ : Fin 2048) (⟨1024 + q.val, by omega⟩ : Fin 2048)) = Whz (ix2 q k))
    (hβr : β (ix2 (0 : Fin 1) (⟨q.val, by omega⟩ : Fin 2048)) = βir (ix1 q) + βhr (ix1 q))
    (hβz : β (ix2 (0 : Fin 1) (⟨1024 + q.val, by omega⟩ : Fin 2048)) = βiz (ix1 q) + βhz (ix1 q))
    (hwn : ∀ k : Fin 1024, wn (ix2 k q) = Win (ix2 q k)) (hβn : βn (ix2 (0 : Fin 1) q) = βin (ix1 q))
    (hwh : ∀ k : Fin 1024, wh (ix2 k q) = Whn (ix2 q k)) (hβh : βh (ix2 (0 : Fin 1) q) = βhn (ix1 q)) :
    k0_pay1 (F := Ideal) x0 x1 w β wn βn wh βh (ix2 p q)
      = cellAt X H Wir Whr Wiz Whz Win Whn βir βhr βiz βhz βin βhn B q := by
  rw [payload_apply,
    fusedPre_eq_affines x0 x1 w β X H Wir Whr βir βhr p B (⟨q.val, by omega⟩ : Fin 2048) q h0 h1 hir hhr hβr,
    fusedPre_eq_affines x0 x1 w β X H Wiz Whz βiz βhz p B (⟨1024 + q.val, by omega⟩ : Fin 2048) q h0 h1 hiz hhz hβz,
    plainPre_eq_affine x0 wn βn X Win βin p B q h0 hwn hβn, plainPre_eq_affine x1 wh βh H Whn βhn p B q h1 hwh hβh, h1 q]
  unfold cellAt candidate update reset gate
  simp only [Cert.LibLogisticTanh.exp_spelling_f32]

end Cert.KernelIdeal.Block

end
-- ==== Proof.CellBlocks.lean ====
/-
  From the blocks to the whole array: after the run the result array holds the cell of the argument arrays.

  The grid has 128 points.  Point `t` stages rows 256·t … 256·t + 255 of the inputs and of the hidden states, the whole
  of the six arrays the host prepared (the shared 2048 × 2048 matrix, the candidate's two transposed weights, the shared
  bias row, the candidate's two bias rows), and writes back rows 256·t … 256·t + 255 of the result.  What it writes at
  (p, q) is the block payload, which under these readings of the blocks is the cell at batch row 256·t + p, entry q.
  Every row r of the result lies in the block of point r / 256, so the blocks cover the array and it ends holding the
  cell everywhere.
-/
import proofs.«125904_j82231443849805_2_alg».proof.Proof.Gen.KernelIdeal.Value
import proofs.«125904_j82231443849805_2_alg».proof.Proof.GruCell
import proofs.«125904_j82231443849805_2_alg».proof.Proof.FusedOperands
import proofs.«125904_j82231443849805_2_alg».proof.Proof.CellAlgebra
import Idealize.ShloMosaic.Lib.StableHlo.Run
import Idealize.ShloMosaic.Lib.Pipeline.Value
import Idealize.ShloMosaic.Lib.ValueIdx

noncomputable section

namespace Cert.KernelIdeal.CellValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The cell of the argument arrays as core `c` holds them at launch. -/
abbrev result (c : Dev nD) : S32768x1024.Idx → EReal :=
  Cert.GruCell.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! ## The index maps, decided over the grid -/

/-- The row-blocked windows (inputs, hidden states, result) sit at block row `t`, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- The six host-prepared windows are staged whole at every point: block (0, 0). -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The arrays the host prepared, as the region finds them -/

theorem V_v5 (c : Dev nD) : (V m c main_v5 : S2048x2048.Idx → EReal)
    = Operands.fusedWeight (m ((c : Thread nD τ).loc main_arg2)) (m ((c : Thread nD τ).loc main_arg4)) (m ((c : Thread nD τ).loc main_arg3)) (m ((c : Thread nD τ).loc main_arg5)) := by
  dsimp only [V, hostOps0]; after_results; rfl

theorem V_v9 (c : Dev nD) : (V m c main_v9 : S1x2048.Idx → EReal)
    = Operands.fusedBias (m ((c : Thread nD τ).loc main_arg8)) (m ((c : Thread nD τ).loc main_arg10)) (m ((c : Thread nD τ).loc main_arg9)) (m ((c : Thread nD τ).loc main_arg11)) := by
  dsimp only [V, hostOps0]; after_results; rfl

theorem V_v11 (c : Dev nD) : (V m c main_v11 : S1024x1024.Idx → EReal) = Operands.plainWeight (m ((c : Thread nD τ).loc main_arg6)) := by
  dsimp only [V, hostOps0]; after_results; rfl

theorem V_v13 (c : Dev nD) : (V m c main_v13 : S1024x1024.Idx → EReal) = Operands.plainWeight (m ((c : Thread nD τ).loc main_arg7)) := by
  dsimp only [V, hostOps0]; after_results; rfl

theorem V_v14 (c : Dev nD) : (V m c main_v14 : S1x1024.Idx → EReal) = Operands.plainBias (m ((c : Thread nD τ).loc main_arg12)) := by
  dsimp only [V, hostOps0]; after_results; rfl

theorem V_v15 (c : Dev nD) : (V m c main_v15 : S1x1024.Idx → EReal) = Operands.plainBias (m ((c : Thread nD τ).loc main_arg13)) := by
  dsimp only [V, hostOps0]; after_results; rfl

/-! ## Each window's block at a point, read at an index -/

/-- Row `p` of the inputs' block at point `t` is row 256·t + p of the inputs. -/
theorem iblk0_apply (c : Dev nD) (t : Fin cfg0.N) (p : Fin 256) (k : Fin 1024) (B : Fin 32768) (hB : B.val = t.val * 256 + p.val) :
    iblk m c 0 t (ix2 p k) = (m ((c : Thread nD τ).loc main_arg0)) (ix2 B k) := by
  show V m c main_arg0 (((cfg0.win 0).blk t).view.emb (ix2 p k)) = _
  rw [V_main_arg0]
  refine congrArg _ ?_
  have hf := idx_rows t
  funext a; apply Fin.ext
  match a with
  | ⟨0, _⟩ => show win0_0.index t (0 : Fin 2) * 256 + 1 * p.val = B.val; rw [hf.1, hB]; omega
  | ⟨1, _⟩ => show win0_0.index t (1 : Fin 2) * 1024 + 1 * k.val = k.val; rw [hf.2.1]; omega

/-- Row `p` of the hidden states' block at point `t` is row 256·t + p of the hidden states. -/
theorem iblk1_apply (c : Dev nD) (t : Fin cfg0.N) (p : Fin 256) (k : Fin 1024) (B : Fin 32768) (hB : B.val = t.val * 256 + p.val) :
    iblk m c 1 t (ix2 p k) = (m ((c : Thread nD τ).loc main_arg1)) (ix2 B k) := by
  show V m c main_arg1 (((cfg0.win 1).blk t).view.emb (ix2 p k)) = _
  rw [V_main_arg1]
  refine congrArg _ ?_
  have hf := idx_rows t
  funext a; apply Fin.ext
  match a with
  | ⟨0, _⟩ => show win0_1.index t (0 : Fin 2) * 256 + 1 * p.val = B.val; rw [hf.2.2.1, hB]; omega
  | ⟨1, _⟩ => show win0_1.index t (1 : Fin 2) * 1024 + 1 * k.val = k.val; rw [hf.2.2.2.1]; omega

theorem iblk2_apply (c : Dev nD) (t : Fin cfg0.N) (i : S2048x2048.Idx) :
    iblk m c 2 t i = Operands.fusedWeight (m ((c : Thread nD τ).loc main_arg2)) (m ((c : Thread nD τ).loc main_arg4)) (m ((c : Thread nD τ).loc main_arg3)) (m ((c : Thread nD τ).loc main_arg5)) i := by
  show V m c main_v5 (((cfg0.win 2).blk t).view.emb i) = _
  rw [V_v5]
  refine congrArg _ ?_
  have hf := idx_whole t
  funext a; apply Fin.ext
  match a with
  | ⟨0, _⟩ => show win0_2.index t (0 : Fin 2) * 2048 + 1 * (i 0).val = (i 0).val; rw [hf.1]; omega
  | ⟨1, _⟩ => show win0_2.index t (1 : Fin 2) * 2048 + 1 * (i 1).val = (i 1).val; rw [hf.2.1]; omega

theorem iblk3_apply (c : Dev nD) (t : Fin cfg0.N) (i : S1024x1024.Idx) :
    iblk m c 3 t i = Operands.plainWeight (m ((c : Thread nD τ).loc main_arg6)) i := by
  show V m c main_v11 (((cfg0.win 3).blk t).view.emb i) = _
  rw [V_v11]
  refine congrArg _ ?_
  have hf := idx_whole t
  funext a; apply Fin.ext
  match a with
  | ⟨0, _⟩ => show win0_3.index t (0 : Fin 2) * 1024 + 1 * (i 0).val = (i 0).val; rw [hf.2.2.1]; omega
  | ⟨1, _⟩ => show win0_3.index t (1 : Fin 2) * 1024 + 1 * (i 1).val = (i 1).val; rw [hf.2.2.2.1]; omega

theorem iblk4_apply (c : Dev nD) (t : Fin cfg0.N) (i : S1024x1024.Idx) :
    iblk m c 4 t i = Operands.plainWeight (m ((c : Thread nD τ).loc main_arg7)) i := by
  show V m c main_v13 (((cfg0.win 4).blk t).view.emb i) = _
  rw [V_v13]
  refine congrArg _ ?_
  have hf := idx_whole t
  funext a; apply Fin.ext
  match a with
  | ⟨0, _⟩ => show win0_4.index t (0 : Fin 2) * 1024 + 1 * (i 0).val = (i 0).val; rw [hf.2.2.2.2.1]; omega
  | ⟨1, _⟩ => show win0_4.index t (1 : Fin 2) * 1024 + 1 * (i 1).val = (i 1).val; rw [hf.2.2.2.2.2.1]; omega

theorem iblk5_apply (c : Dev nD) (t : Fin cfg0.N) (i : S1x2048.Idx) :
    iblk m c 5 t i = Operands.fusedBias (m ((c : Thread nD τ).loc main_arg8)) (m ((c : Thread nD τ).loc main_arg10)) (m ((c : Thread nD τ).loc main_arg9)) (m ((c : Thread nD τ).loc main_arg11)) i := by
  show V m c main_v9 (((cfg0.win 5).blk t).view.emb i) = _
  rw [V_v9]
  refine congrArg _ ?_
  have hf := idx_whole t
  funext a; apply Fin.ext
  match a with
  | ⟨0, _⟩ => show win0_5.index t (0 : Fin 2) * 1 + 1 * (i 0).val = (i 0).val; rw [hf.2.2.2.2.2.2.1]; omega
  | ⟨1, _⟩ => show win0_5.index t (1 : Fin 2) * 2048 + 1 * (i 1).val = (i 1).val; rw [hf.2.2.2.2.2.2.2.1]; omega

theorem iblk6_apply (c : Dev nD) (t : Fin cfg0.N) (i : S1x1024.Idx) :
    iblk m c 6 t i = Operands.plainBias (m ((c : Thread nD τ).loc main_arg12)) i := by
  show V m c main_v14 (((cfg0.win 6).blk t).view.emb i) = _
  rw [V_v14]
  refine congrArg _ ?_
  have hf := idx_whole t
  funext a; apply Fin.ext
  match a with
  | ⟨0, _⟩ => show win0_6.index t (0 : Fin 2) * 1 + 1 * (i 0).val = (i 0).val; rw [hf.2.2.2.2.2.2.2.2.1]; omega
  | ⟨1, _⟩ => show win0_6.index t (1 : Fin 2) * 1024 + 1 * (i 1).val = (i 1).val; rw [hf.2.2.2.2.2.2.2.2.2.1]; omega

theorem iblk7_apply (c : Dev nD) (t : Fin cfg0.N) (i : S1x1024.Idx) :
    iblk m c 7 t i = Operands.plainBias (m ((c : Thread nD τ).loc main_arg13)) i := by
  show V m c main_v15 (((cfg0.win 7).blk t).view.emb i) = _
  rw [V_v15]
  refine congrArg _ ?_
  have hf := idx_whole t
  funext a; apply Fin.ext
  match a with
  | ⟨0, _⟩ => show win0_7.index t (0 : Fin 2) * 1 + 1 * (i 0).val = (i 0).val; rw [hf.2.2.2.2.2.2.2.2.2.2.1]; omega
  | ⟨1, _⟩ => show win0_7.index t (1 : Fin 2) * 1024 + 1 * (i 1).val = (i 1).val; rw [hf.2.2.2.2.2.2.2.2.2.2.2]; omega

/-! ## What a point writes back, the cover, and the array after the run -/

/-- WHAT POINT `t` WRITES BACK is block `t` of the cell of the argument arrays. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero hz]
  simp only [View.ld_unit_zero (S := S256x1024) hz, View.ld_unit_zero (S := S2048x2048) hz,
    View.ld_unit_zero (S := S1x2048) hz, View.ld_unit_zero (S := S1024x1024) hz, View.ld_unit_zero (S := S1x1024) hz]
  funext j
  obtain ⟨p, q, rfl⟩ : ∃ (p : Fin 256) (q : Fin 1024), j = ix2 p q := ⟨j 0, j 1, eq_ix2 j⟩
  have ht : t.val < 128 := t.isLt
  have hf := idx_rows t
  have hB : ((cfg0.win 8).blk t).view.emb (ix2 p q) = ix2 (⟨t.val * 256 + p.val, by omega⟩ : Fin 32768) q := by
    funext a; apply Fin.ext
    match a with
    | ⟨0, _⟩ => show win0_8.index t (0 : Fin 2) * 256 + 1 * p.val = t.val * 256 + p.val; rw [hf.2.2.2.2.1]; omega
    | ⟨1, _⟩ => show win0_8.index t (1 : Fin 2) * 1024 + 1 * q.val = q.val; rw [hf.2.2.2.2.2]; omega
  show k0_pay1 (F := Ideal) (iblk m c 0 t) (iblk m c 1 t) (iblk m c 2 t) (iblk m c 5 t) (iblk m c 3 t) (iblk m c 6 t)
      (iblk m c 4 t) (iblk m c 7 t) (ix2 p q) = result m c (((cfg0.win 8).blk t).view.emb (ix2 p q))
  rw [hB]
  exact Block.payload_is_cell (iblk m c 0 t) (iblk m c 1 t) (iblk m c 2 t) (iblk m c 5 t) (iblk m c 3 t) (iblk m c 6 t)
    (iblk m c 4 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    p (⟨t.val * 256 + p.val, by omega⟩ : Fin 32768) q
    (fun k => iblk0_apply m c t p k _ rfl) (fun k => iblk1_apply m c t p k _ rfl)
    (fun k => (iblk2_apply m c t _).trans ((Operands.fusedWeight_upper _ _ _ _ k _).trans (Operands.sideT_reset _ _ k q)))
    (fun k => (iblk2_apply m c t _).trans ((Operands.fusedWeight_lower _ _ _ _ k _).trans (Operands.sideT_reset _ _ k q)))
    (fun k => (iblk2_apply m c t _).trans ((Operands.fusedWeight_upper _ _ _ _ k _).trans (Operands.sideT_update _ _ k q)))
    (fun k => (iblk2_apply m c t _).trans ((Operands.fusedWeight_lower _ _ _ _ k _).trans (Operands.sideT_update _ _ k q)))
    ((iblk5_apply m c t _).trans (Operands.fusedBias_reset _ _ _ _ q))
    ((iblk5_apply m c t _).trans (Operands.fusedBias_update _ _ _ _ q))
    (fun k => (iblk3_apply m c t _).trans (Operands.plainWeight_apply _ k q))
    ((iblk6_apply m c t _).trans (Operands.plainBias_apply _ q))
    (fun k => (iblk4_apply m c t _).trans (Operands.plainWeight_apply _ k q))
    ((iblk7_apply m c t _).trans (Operands.plainBias_apply _ q))

/-- An index of the result array is in point `t`'s block iff each coordinate is in the block's range on its axis. -/
theorem mem_blk (t : Fin cfg0.N) (i : S32768x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v16).slice (win0_8.rect t)).set ↔ _
  rw [View.set_slice_whole, Rect.mem_set_unit]
  exact Iff.rfl

/-- THE BLOCKS COVER THE ARRAY: row `r` lies in the block of point `r / 256`. -/
theorem cover (i : S32768x1024.Idx) :
    ∃ t : Fin cfg0.N, (cfg0.win 8).flush t = true ∧ i ∈ ((cfg0.win 8).blk t).view.set := by
  have h0 : (i 0).val < 32768 := (i 0).isLt
  have h1 : (i 1).val < 1024 := (i 1).isLt
  have hlt : (i 0).val / 256 < cfg0.N := by show (i 0).val / 256 < 128; omega
  refine ⟨⟨(i 0).val / 256, hlt⟩, flush0_8 _, ?_⟩
  have hf := idx_rows ⟨(i 0).val / 256, hlt⟩
  rw [mem_blk]
  intro a
  match a with
  | ⟨0, _⟩ =>
    show win0_8.index ⟨(i 0).val / 256, hlt⟩ (0 : Fin 2) * 256 ≤ (i 0).val
      ∧ (i 0).val < win0_8.index ⟨(i 0).val / 256, hlt⟩ (0 : Fin 2) * 256 + 256
    rw [hf.2.2.2.2.1]
    show (i 0).val / 256 * 256 ≤ (i 0).val ∧ (i 0).val < (i 0).val / 256 * 256 + 256
    omega
  | ⟨1, _⟩ =>
    show win0_8.index ⟨(i 0).val / 256, hlt⟩ (1 : Fin 2) * 1024 ≤ (i 1).val
      ∧ (i 1).val < win0_8.index ⟨(i 0).val / 256, hlt⟩ (1 : Fin 2) * 1024 + 1024
    rw [hf.2.2.2.2.2]
    omega

/-- THE ARRAY AFTER THE RUN is the cell of the argument arrays. -/
theorem final (c : Dev nD) : (dats m 0 c).arrAt 8 cfg0.N = result m c :=
  (dats m 0 c).arrAt_eq_of_cover 8 (result m c) (fun t _ => flushed_eq m c t) (cover)

/-- The run, read: every weakly fair execution ends with the result array at the cell of the argument arrays and the
    arguments as launched. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.KernelIdeal.CellValue

end
-- ==== Proof.lean ====
/-
  A single step of a gated recurrent cell: a fused kernel against the textbook formulation, equal on the extended reals.

  THE TWO PROGRAMS.  The reference stacks each side's three weight matrices (reset, update, candidate), forms one
  product per side — inputs against the input-side stack, hidden states against the hidden-side stack — adds each
  side's stacked bias, and cuts the three gates' pre-activations out of each product.  The kernel instead lets the reset
  and update gates share ONE contraction over 2048 positions: each batch row of the inputs is laid beside the same row of
  the hidden states, and contracted with a 2048 × 2048 matrix that holds the input-side weights above the hidden-side
  weights; the two sides' biases are added to each other first and to the product afterwards.  The candidate keeps two
  separate products, because the reset gate scales the hidden side's before the two meet.  The kernel works on blocks of
  256 batch rows, one block per grid point, and changes the format of the values it contracts; on the extended reals a
  change of format is the identity.

  WHY THEY AGREE.  A sum over 2048 positions is the sum over the first 1024 plus the sum over the last 1024, and
      (S_x + S_h) + (β_x + β_h) = (S_x + β_x) + (S_h + β_h)
  regroups four summands; both hold in any commutative monoid, so no input needs to be finite for them.  The kernel's gate
  nonlinearity is the function 1 / (1 + e^(−a)) that the reference spells out, on every extended real.  Everything else
  the two programs compute is the same expression of the same entries.

  THE PARTS.  GruCell states the cell as one function of the fourteen argument arrays.  RefValue shows the reference's
  run ends at that function (the generated run and its read-at-an-index lemmas, the stacked arrays read by hand).
  BlockPayload reads one block of the kernel's result at an entry; FusedOperands reads the arrays the host prepares for
  the kernel; CellAlgebra joins the two to the cell; CellBlocks goes from the blocks to the whole array.  The three frame
  claims are the generated frames (the reference's: its generated run with the result dropped); the idealization changed
  no operation, so the preservation claim is trivial.
-/
import proofs.«125904_j82231443849805_2_alg».proof.Defs
import proofs.«125904_j82231443849805_2_alg».proof.Proof.Gen.Kernel
import proofs.«125904_j82231443849805_2_alg».proof.Proof.Gen.Kernel.Skeleton
import proofs.«125904_j82231443849805_2_alg».proof.Proof.Gen.Kernel.Launch
import proofs.«125904_j82231443849805_2_alg».proof.Proof.Gen.Kernel.Points
import proofs.«125904_j82231443849805_2_alg».proof.Proof.Gen.Kernel.Frame
import proofs.«125904_j82231443849805_2_alg».proof.Proof.Gen.KernelIdeal
import proofs.«125904_j82231443849805_2_alg».proof.Proof.Gen.KernelIdeal.Skeleton
import proofs.«125904_j82231443849805_2_alg».proof.Proof.Gen.KernelIdeal.Launch
import proofs.«125904_j82231443849805_2_alg».proof.Proof.Gen.KernelIdeal.Points
import proofs.«125904_j82231443849805_2_alg».proof.Proof.Gen.KernelIdeal.Frame
import proofs.«125904_j82231443849805_2_alg».proof.Proof.Gen.ReferenceIdeal
import proofs.«125904_j82231443849805_2_alg».proof.Proof.Gen.Pre_finite_inputs
import proofs.«125904_j82231443849805_2_alg».proof.Proof.Gen.KernelIdeal.Value
import proofs.«125904_j82231443849805_2_alg».proof.Proof.Gen.ReferenceIdeal.Run
import proofs.«125904_j82231443849805_2_alg».proof.Proof.Gen.ReferenceIdeal.Read
import proofs.«125904_j82231443849805_2_alg».proof.Proof.GruCell
import proofs.«125904_j82231443849805_2_alg».proof.Proof.RefValue
import proofs.«125904_j82231443849805_2_alg».proof.Proof.CellBlocks
import Idealize.ShloMosaic.Adequacy
import Idealize.ShloMosaic.Init

noncomputable section

namespace Cert.Proof

open Idealize.ShloMosaic Idealize.ShloMosaic.TcCoe Idealize.SL.Sem

namespace GruClaims

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the cell of the argument arrays — the kernel's by the blocks covering the
    array, the reference's by its run read one operation at a time — and the argument arrays agree. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.reference_is_cell,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2.1,
    (hagree c).2.2.2.2.2.2.2.2.2.2.2.2.2]

end GruClaims

theorem claim : Cert.Claim := ⟨Cert.Kernel.Gen.facts, Cert.KernelIdeal.Gen.facts, Cert.ReferenceIdeal.Gen.facts, Cert.Pre_finite_inputs.Gen.facts,
  GruClaims.frame_kernel, GruClaims.frame_kernelIdeal, GruClaims.frame_reference, GruClaims.preserves, GruClaims.algebraic⟩

end Cert.Proof

end
